-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4096, .f32⟩
  | .hbm, ⟨28, _⟩ => ⟨S1x4096, .f32⟩
  | .hbm, ⟨29, _⟩ => ⟨S8192x1024, .f32⟩
  | .hbm, ⟨30, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1024x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S1024x1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S1024x1024, .f32⟩
  | .hbm, ⟨82, _⟩ => ⟨S8192x1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  One step of an LSTM cell on a batch of 8192 rows with 1024 inputs and 1024 hidden units, as a function of its
  nineteen arrays, entry by entry, over the extended reals.

  For gate g in (input, forget, candidate, output) = (0, 1, 2, 3), row r and unit j the pre-activation is
      pre g r j = (sum_k x r k * W g j k  +  sum_k h r k * U g j k) + (b g j + d g j),
  the new cell state is      cell r j   = logistic (pre 1 r j) * c r j + logistic (pre 0 r j) * tanh (pre 2 r j),
  and the new hidden state   hidden r j = logistic (pre 3 r j) * tanh (cell r j).
  Sums and products are those of the extended reals; logistic and tanh are the total functions of the ideal
  reading (logistic sends -inf to 0 and +inf to 1, tanh sends them to -1 and 1).
  The grouping of pre is the fused one (both products first, then both biases); the other grouping met in this
  certificate, (product + bias) + (product + bias), is the same number because addition of extended reals is
  commutative and associative (pre_eq_split), with no finiteness needed.
-/
import Idealize.ShloMosaic.PureOps.Ideal
import Idealize.ShloMosaic.Lib.ValueIdx

noncomputable section

namespace Cert.Lstm

open Idealize.ShloMosaic Idealize.ShloMosaic.ValueIdx
open scoped BigOperators

/-- batch x features -/
abbrev SB : Shape := ⟨2, ![8192, 1024]⟩
/-- one gate's weight matrix, units x features -/
abbrev SW : Shape := ⟨2, ![1024, 1024]⟩
/-- one gate's bias vector -/
abbrev Sv : Shape := ⟨1, ![1024]⟩

/-- The cell's data by coordinates: the input x, the previous hidden state h and cell state c, and per gate the
    input weights W, the recurrent weights U and the two biases b, d. -/
structure Params where
  x : Fin 8192 → Fin 1024 → EReal
  h : Fin 8192 → Fin 1024 → EReal
  c : Fin 8192 → Fin 1024 → EReal
  W : Fin 4 → Fin 1024 → Fin 1024 → EReal
  U : Fin 4 → Fin 1024 → Fin 1024 → EReal
  b : Fin 4 → Fin 1024 → EReal
  d : Fin 4 → Fin 1024 → EReal

namespace Params

/-- Gate g's pre-activation at row r, unit j: both products, then both biases. -/
def pre (P : Params) (g : Fin 4) (r : Fin 8192) (j : Fin 1024) : EReal :=
  ((∑ k : Fin 1024, P.x r k * P.W g j k) + (∑ k : Fin 1024, P.h r k * P.U g j k)) + (P.b g j + P.d g j)

/-- The same number with each product next to its bias. -/
theorem pre_eq_split (P : Params) (g : Fin 4) (r : Fin 8192) (j : Fin 1024) :
    P.pre g r j = ((∑ k : Fin 1024, P.x r k * P.W g j k) + P.b g j) + ((∑ k : Fin 1024, P.h r k * P.U g j k) + P.d g j) := by
  unfold pre
  exact add_add_add_comm _ _ _ _

/-- The new cell state. -/
def cell (P : Params) (r : Fin 8192) (j : Fin 1024) : EReal :=
  Ideal.logistic (P.pre 1 r j) * P.c r j + Ideal.logistic (P.pre 0 r j) * Ideal.tanh (P.pre 2 r j)

/-- The new hidden state. -/
def hidden (P : Params) (r : Fin 8192) (j : Fin 1024) : EReal :=
  Ideal.logistic (P.pre 3 r j) * Ideal.tanh (P.cell r j)

/-- The new cell state as an array. -/
def cellArr (P : Params) : SB.Idx → EReal := fun i => P.cell ⟨(i 0).val, (i 0).isLt⟩ ⟨(i 1).val, (i 1).isLt⟩
/-- The new hidden state as an array. -/
def hiddenArr (P : Params) : SB.Idx → EReal := fun i => P.hidden ⟨(i 0).val, (i 0).isLt⟩ ⟨(i 1).val, (i 1).isLt⟩

theorem cellArr_ix2 (P : Params) (r : Fin 8192) (j : Fin 1024) : P.cellArr (ix2 r j) = P.cell r j := rfl
theorem hiddenArr_ix2 (P : Params) (r : Fin 8192) (j : Fin 1024) : P.hiddenArr (ix2 r j) = P.hidden r j := rfl

/-- An array is the new cell state as soon as it is at every pair of coordinates. -/
theorem eq_cellArr (P : Params) (f : SB.Idx → EReal) (hf : ∀ r j, f (ix2 r j) = P.cell r j) : f = P.cellArr := by
  funext i; rw [eq_ix2 i]; exact hf _ _
theorem eq_hiddenArr (P : Params) (f : SB.Idx → EReal) (hf : ∀ r j, f (ix2 r j) = P.hidden r j) : f = P.hiddenArr := by
  funext i; rw [eq_ix2 i]; exact hf _ _

end Params

/-- The cell's data read off the nineteen arrays in the order the programs take them: x, h, c, then for each gate
    (input, forget, candidate, output) its input weights, input bias, recurrent weights, recurrent bias. -/
def params (a0 a1 a2 : SB.Idx → EReal)
    (a3 : SW.Idx → EReal) (a4 : Sv.Idx → EReal) (a5 : SW.Idx → EReal) (a6 : Sv.Idx → EReal)
    (a7 : SW.Idx → EReal) (a8 : Sv.Idx → EReal) (a9 : SW.Idx → EReal) (a10 : Sv.Idx → EReal)
    (a11 : SW.Idx → EReal) (a12 : Sv.Idx → EReal) (a13 : SW.Idx → EReal) (a14 : Sv.Idx → EReal)
    (a15 : SW.Idx → EReal) (a16 : Sv.Idx → EReal) (a17 : SW.Idx → EReal) (a18 : Sv.Idx → EReal) : Params where
  x r k := a0 (ix2 r k)
  h r k := a1 (ix2 r k)
  c r k := a2 (ix2 r k)
  W g j k := match g with | 0 => a3 (ix2 j k) | 1 => a7 (ix2 j k) | 2 => a11 (ix2 j k) | 3 => a15 (ix2 j k)
  U g j k := match g with | 0 => a5 (ix2 j k) | 1 => a9 (ix2 j k) | 2 => a13 (ix2 j k) | 3 => a17 (ix2 j k)
  b g j := match g with | 0 => a4 (ix1 j) | 1 => a8 (ix1 j) | 2 => a12 (ix1 j) | 3 => a16 (ix1 j)
  d g j := match g with | 0 => a6 (ix1 j) | 1 => a10 (ix1 j) | 2 => a14 (ix1 j) | 3 => a18 (ix1 j)

end Cert.Lstm

end
-- ==== Proof.ParamsKI.lean ====
/-
  The LSTM cell's data read off the idealized kernel program's nineteen argument arrays on a device.
-/
import proofs.«100066_j7112465842327_2_alg».proof.KernelIdeal
import proofs.«100066_j7112465842327_2_alg».proof.Proof.Spec

noncomputable section

namespace Cert.KernelIdeal

open Idealize.ShloMosaic Idealize.ShloMosaic.TcCoe Idealize.SL.Sem

/-- The cell's data in device c's memory m: x, h, c, then per gate the input weights, input bias, recurrent weights,
    recurrent bias, in the program's argument order. -/
def P (m : (ℓ : Loc nD τ sig) → Buf (Elt Ideal) ℓ) (c : Dev nD) : Cert.Lstm.Params :=
  Cert.Lstm.params (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17)) (m ((c : Thread nD τ).loc main_arg18))

end Cert.KernelIdeal

end
-- ==== Proof.FrameK.lean ====
/-
  The frame run of the LSTM cell kernel: the host operations before the one region, the arrays as the region finds
  them, each window's block at a grid point, what the body leaves in the two output buffers, the body's triple, the
  proof data of the pipeline, the run of the whole program and the frame claim, at any float instance.
-/
import proofs.«100066_j7112465842327_2_alg».proof.Proof.Gen.Kernel.Launch
import proofs.«100066_j7112465842327_2_alg».proof.Proof.Gen.Kernel.Skeleton
import proofs.«100066_j7112465842327_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core c's buffers when the region is entered: after the ten host operations (the two stacked and rounded weight
    matrices, the four summed biases, their concatenation and its reshape to one row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is V's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is V's and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is V's and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is V's and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data whose array is V's and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data whose array is V's and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post, read at the
    nineteen argument arrays (the three staged inputs through their windows, the sixteen weight and bias arrays as
    buffers no window stages), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

abbrev rA : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output window's buffer -/

/-- The new hidden state's buffer after the body, from the input windows' blocks: its one store as a piece. -/
def out0_6 (x0 x1 x2 : Vec F S256x1024 .f32) (x3 x4 : Vec F S4096x1024 .bf16) (x5 : Vec F S1x4096 .f32) : Vec F S256x1024 .f32 :=
  View.canon [⟨rA, k0_pay3 (View.ld x0 rA) (View.ld x1 rA) (View.ld x2 rA) (View.ld x3 rW) (View.ld x4 rW) (View.ld x5 rB)⟩]

/-- The new cell state's buffer after the body, from the input windows' blocks: its one store as a piece. -/
def out0_7 (x0 x1 x2 : Vec F S256x1024 .f32) (x3 x4 : Vec F S4096x1024 .bf16) (x5 : Vec F S1x4096 .f32) : Vec F S256x1024 .f32 :=
  View.canon [⟨rA, k0_pay2 (View.ld x0 rA) (View.ld x1 rA) (View.ld x2 rA) (View.ld x3 rW) (View.ld x4 rW) (View.ld x5 rB)⟩]

/-- The one store of an output tiles its buffer, so it covers it. -/
theorem cover0_A (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- The kernel body on whole staging memrefs, the six inputs' at read contents and the two outputs' at anything, runs to
    the continuation holding the inputs' as they were and each output's at the canon of its one store over the inputs.
    Each output buffer is loaded whole (the value unused) right before it is stored whole. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_A _)
  iexists _; isplitr
  swap; · iexact H7
  ipureintro
  exact View.read_writes_eq_canon _ _ _ (cover0_A _)

/-! ## The pipeline's proof data -/

/-- The proof data of the one pipeline on core c: the arrays as the region finds them; after the body at point t each
    input's buffer at its block and each output's at its canon over the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected; V stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the program
    on the cores terminates, and every final state has every array of the pipeline at what the proof data computes
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.FrameKI.lean ====
/-
  The frame run of the LSTM cell kernel: the host operations before the one region, the arrays as the region finds
  them, each window's block at a grid point, what the body leaves in the two output buffers, the body's triple, the
  proof data of the pipeline, the run of the whole program and the frame claim, at any float instance.
-/
import proofs.«100066_j7112465842327_2_alg».proof.Proof.Gen.KernelIdeal.Launch
import proofs.«100066_j7112465842327_2_alg».proof.Proof.Gen.KernelIdeal.Skeleton
import proofs.«100066_j7112465842327_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- Core c's buffers when the region is entered: after the ten host operations (the two stacked and rounded weight
    matrices, the four summed biases, their concatenation and its reshape to one row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is V's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is V's and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is V's and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is V's and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data whose array is V's and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data whose array is V's and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post, read at the
    nineteen argument arrays (the three staged inputs through their windows, the sixteen weight and bias arrays as
    buffers no window stages), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses -/

abbrev rA : Rect S256x1024 := Rect.unit (s := S256x1024) ![0, 0] S256x1024.size inb_S256x1024_S256x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output window's buffer -/

/-- The new hidden state's buffer after the body, from the input windows' blocks: its one store as a piece. -/
def out0_6 (x0 x1 x2 : Vec F S256x1024 .f32) (x3 x4 : Vec F S4096x1024 .bf16) (x5 : Vec F S1x4096 .f32) : Vec F S256x1024 .f32 :=
  View.canon [⟨rA, k0_pay3 (View.ld x0 rA) (View.ld x1 rA) (View.ld x2 rA) (View.ld x3 rW) (View.ld x4 rW) (View.ld x5 rB)⟩]

/-- The new cell state's buffer after the body, from the input windows' blocks: its one store as a piece. -/
def out0_7 (x0 x1 x2 : Vec F S256x1024 .f32) (x3 x4 : Vec F S4096x1024 .bf16) (x5 : Vec F S1x4096 .f32) : Vec F S256x1024 .f32 :=
  View.canon [⟨rA, k0_pay2 (View.ld x0 rA) (View.ld x1 rA) (View.ld x2 rA) (View.ld x3 rW) (View.ld x4 rW) (View.ld x5 rB)⟩]

/-- The one store of an output tiles its buffer, so it covers it. -/
theorem cover0_A (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- The kernel body on whole staging memrefs, the six inputs' at read contents and the two outputs' at anything, runs to
    the continuation holding the inputs' as they were and each output's at the canon of its one store over the inputs.
    Each output buffer is loaded whole (the value unused) right before it is stored whole. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_A _)
  iexists _; isplitr
  swap; · iexact H7
  ipureintro
  exact View.read_writes_eq_canon _ _ _ (cover0_A _)

/-! ## The pipeline's proof data -/

/-- The proof data of the one pipeline on core c: the arrays as the region finds them; after the body at point t each
    input's buffer at its block and each output's at its canon over the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (the definition projected; V stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the program
    on the cores terminates, and every final state has every array of the pipeline at what the proof data computes
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.Payload.lean ====
/-
  The LSTM kernel body's three computed values read at an entry, over the extended reals.

  The body forms the fused pre-activation  pre = x · Wcatᵀ + h · Ucatᵀ + bias row,  a [256, 4096] array whose four blocks
  of 1024 columns are the input, forget, candidate and output gates' pre-activations, then
      new cell   = logistic(pre[:, 1024:2048]) * c + logistic(pre[:, 0:1024]) * tanh(pre[:, 2048:3072]),
      new hidden = logistic(pre[:, 3072:4096]) * tanh(new cell).
  pay1_apply reads pre at (p, n): the narrowing of the operands to bf16 is the identity on extended reals, the shape casts
  are to the same shape, each matrix product contracts the second axis of both operands (row p of the block against
  row n of the weights), and the bias row is broadcast down the rows. pay2_apply and pay3_apply read the new cell and
  hidden states at (p, q) in terms of pre at the four shifted columns.
-/
import proofs.«100066_j7112465842327_2_alg».proof.Proof.Gen.KernelIdeal.Skeleton
import proofs.«100066_j7112465842327_2_alg».proof.Proof.LibMatmulRows
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## The matrix unit's dimension record: where it reads its two operands -/

/-- The left operand is read at the output's row … -/
theorem dot_lhs0 (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
/-- … and the contraction position; … -/
theorem dot_lhs1 (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
/-- … the right operand at the output's column … -/
theorem dot_rhs0 (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
/-- … and the contraction position. -/
theorem dot_rhs1 (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

variable (v0 v2 v4 : Vec Ideal S256x1024 .f32) (v5 v8 : Vec Ideal S4096x1024 .bf16) (v12 : Vec Ideal S1x4096 .f32)

/-- One product of the body: rows of a [256, 1024] block against rows of a [4096, 1024] matrix. -/
theorem mm_apply (L : FVec Ideal S256x1024 .bf16) (R : FVec Ideal S4096x1024 .bf16) (p : Fin 256) (n : Fin 4096) :
    matmul (F := Ideal) dot_S256x1024_S4096x1024_S256x4096_1_1_0_0_n_n none L R (constant S256x4096 .f32 0x00000000#32) (ix2 p n)
      = ∑ k : Fin 1024, L (ix2 p k) * R (ix2 n k) :=
  Cert.MatmulRows.matmul_rows_rows dot_S256x1024_S4096x1024_S256x4096_1_1_0_0_n_n rfl rfl dot_lhs0 dot_lhs1 dot_rhs0 dot_rhs1 none L R p n

/-- The fused pre-activation at (p, n): both products, then the bias row's entry n. -/
theorem pay1_apply (p : Fin 256) (n : Fin 4096) :
    k0_pay1 (F := Ideal) v0 v2 v5 v8 v12 (ix2 p n)
      = ((∑ k : Fin 1024, v0 (ix2 p k) * v5 (ix2 n k)) + (∑ k : Fin 1024, v2 (ix2 p k) * v8 (ix2 n k))) + v12 (ix2 (0 : Fin 1) n) := by
  unfold k0_pay1
  refine (addf_apply _ _ _).trans ?_
  refine congrArg₂ (· + ·) ((addf_apply _ _ _).trans (congrArg₂ (· + ·) ?_ ?_)) ?_
  · rw [shapeCast_self]
    exact mm_apply _ _ p n
  · rw [shapeCast_self]
    exact mm_apply _ _ p n
  · rw [shapeCast_self]
    refine broadcastTo_apply _ _ _ (ix2 (0 : Fin 1) n) fun a => ?_
    match a with
    | ⟨0, _⟩ => rfl
    | ⟨1, _⟩ => rfl

/-! ## The gate nonlinearities at an entry -/

/-- The logistic function of a vector at an entry is the logistic function of the entry … -/
theorem logistic_apply {s : Shape} {φ : FTy} (a : FVec Ideal s φ) (i : s.Idx) : logistic a i = Ideal.logistic (a i) := rfl
/-- … and so is the hyperbolic tangent. -/
theorem tanh_apply {s : Shape} {φ : FTy} (a : FVec Ideal s φ) (i : s.Idx) : tanh a i = Ideal.tanh (a i) := rfl

/-- A block of 1024 columns starting at column c of a [256, 4096] array, read at (p, q): the array at (p, c + q). -/
theorem slice_cols (c : Nat) (X : FVec Ideal S256x4096 .f32) (h : S256x4096.Slices ![0, c] S256x1024)
    (p : Fin 256) (q : Fin 1024) (n : Fin 4096) (hn : n.val = c + q.val) :
    extractStridedSlice S256x1024 ![0, c] X h (ix2 p q) = X (ix2 p n) := by
  refine extractStridedSlice_apply _ _ _ _ (ix2 p n) fun a => ?_
  match a with
  | ⟨0, _⟩ => exact (Nat.zero_add _).symm
  | ⟨1, _⟩ => exact hn

/-- The new cell state's payload at (p, q): forget gate times old cell state plus input gate times candidate, the
    gates' pre-activations being the column blocks at 1024, 0 and 2048 of the fused pre-activation. -/
theorem pay2_apply (p : Fin 256) (q : Fin 1024) :
    k0_pay2 (F := Ideal) v0 v2 v4 v5 v8 v12 (ix2 p q)
      = Ideal.logistic (k0_pay1 (F := Ideal) v0 v2 v5 v8 v12 (ix2 p ⟨1024 + q.val, by omega⟩)) * v4 (ix2 p q)
        + Ideal.logistic (k0_pay1 (F := Ideal) v0 v2 v5 v8 v12 (ix2 p ⟨q.val, by omega⟩))
          * Ideal.tanh (k0_pay1 (F := Ideal) v0 v2 v5 v8 v12 (ix2 p ⟨2048 + q.val, by omega⟩)) := by
  unfold k0_pay2
  refine (addf_apply _ _ _).trans ?_
  refine congrArg₂ (· + ·) ((mulf_apply _ _ _).trans (congrArg₂ (· * ·) ?_ rfl)) ((mulf_apply _ _ _).trans (congrArg₂ (· * ·) ?_ ?_))
  · exact (logistic_apply _ _).trans (congrArg Ideal.logistic (slice_cols 1024 _ _ p q _ rfl))
  · exact (logistic_apply _ _).trans (congrArg Ideal.logistic (slice_cols 0 _ _ p q _ (Nat.zero_add _).symm))
  · exact (tanh_apply _ _).trans (congrArg Ideal.tanh (slice_cols 2048 _ _ p q _ rfl))

/-- The new hidden state's payload at (p, q): output gate (the column block at 3072) times the hyperbolic tangent of
    the new cell state. -/
theorem pay3_apply (p : Fin 256) (q : Fin 1024) :
    k0_pay3 (F := Ideal) v0 v2 v4 v5 v8 v12 (ix2 p q)
      = Ideal.logistic (k0_pay1 (F := Ideal) v0 v2 v5 v8 v12 (ix2 p ⟨3072 + q.val, by omega⟩))
        * Ideal.tanh (k0_pay2 (F := Ideal) v0 v2 v4 v5 v8 v12 (ix2 p q)) := by
  unfold k0_pay3
  refine (mulf_apply _ _ _).trans (congrArg₂ (· * ·) ?_ ?_)
  · exact (logistic_apply _ _).trans (congrArg Ideal.logistic (slice_cols 3072 _ _ p q _ rfl))
  · exact tanh_apply _ _

end Cert.KernelIdeal.Payload

end
-- ==== Proof.LibCat4.lean ====
/-
  A concatenation of FOUR pieces of one shape along the leading axis, read at an entry.

  Laid end to end along axis 0, four [A, K] arrays a, b, c, d make an [N, K] array (N = 4 * A) whose row g * A + j,
  for g below 4 and j below A, is row j of the g-th piece: the rows before piece g are those of the g pieces of A rows
  before it. The same for four vectors of length A laid end to end. Stated for any element type and any extents; the
  fact that the shapes concatenate is a hypothesis.
-/
import Idealize.ShloMosaic.Lib.Pipeline.Value
import Idealize.ShloMosaic.Lib.ValueIdx

noncomputable section

namespace Cert.Cat4

open Idealize.ShloMosaic Idealize.ShloMosaic.ValueIdx

variable {α : Type}

/-- Four [A, K] arrays laid end to end along the rows into an [N, K] array: row g * A + j is row j of piece g. -/
theorem cat4_rows_apply' {A K N : ℕ} (a b c d : (⟨2, ![A, K]⟩ : Shape).Idx → α)
    (hcat : Shape.Concatenates [⟨2, ![A, K]⟩, ⟨2, ![A, K]⟩, ⟨2, ![A, K]⟩, ⟨2, ![A, K]⟩] ⟨2, ![N, K]⟩ 0)
    (g : Fin 4) (j : Fin A) (k : Fin K) (hn : g.val * A + j.val < N) :
    concatenate ⟨2, ![N, K]⟩ 0 [⟨⟨2, ![A, K]⟩, a⟩, ⟨⟨2, ![A, K]⟩, b⟩, ⟨⟨2, ![A, K]⟩, c⟩, ⟨⟨2, ![A, K]⟩, d⟩] hcat (ix2 ⟨g.val * A + j.val, hn⟩ k)
      = (match g with | 0 => a | 1 => b | 2 => c | 3 => d) (ix2 j k) := by
  -- off the concatenated axis the piece is read at the same coordinate
  have hoff : ∀ (b' : Fin 2), b'.cast (rfl : (⟨2, ![A, K]⟩ : Shape).rank = (⟨2, ![N, K]⟩ : Shape).rank) ≠ (0 : Fin 2) →
      ((ix2 j k : (⟨2, ![A, K]⟩ : Shape).Idx) b').val = ((ix2 (⟨g.val * A + j.val, hn⟩ : Fin N) k : (⟨2, ![N, K]⟩ : Shape).Idx) (b'.cast rfl)).val := fun b' hb => by
    match b' with
    | ⟨0, _⟩ => exact absurd rfl hb
    | ⟨1, _⟩ => rfl
  -- piece g starts after g pieces of A rows
  match g with
  | ⟨0, _⟩ =>
    exact concatenate_apply_piece (t := ⟨2, ![N, K]⟩) 0 [⟨⟨2, ![A, K]⟩, a⟩, ⟨⟨2, ![A, K]⟩, b⟩, ⟨⟨2, ![A, K]⟩, c⟩, ⟨⟨2, ![A, K]⟩, d⟩] hcat _ 0 (by simp) ⟨2, ![A, K]⟩ a rfl rfl (0 * A) (by simp) (ix2 j k) hoff rfl
  | ⟨1, _⟩ =>
    exact concatenate_apply_piece (t := ⟨2, ![N, K]⟩) 0 [⟨⟨2, ![A, K]⟩, a⟩, ⟨⟨2, ![A, K]⟩, b⟩, ⟨⟨2, ![A, K]⟩, c⟩, ⟨⟨2, ![A, K]⟩, d⟩] hcat _ 1 (by simp) ⟨2, ![A, K]⟩ b rfl rfl (1 * A) (by simp) (ix2 j k) hoff rfl
  | ⟨2, _⟩ =>
    exact concatenate_apply_piece (t := ⟨2, ![N, K]⟩) 0 [⟨⟨2, ![A, K]⟩, a⟩, ⟨⟨2, ![A, K]⟩, b⟩, ⟨⟨2, ![A, K]⟩, c⟩, ⟨⟨2, ![A, K]⟩, d⟩] hcat _ 2 (by simp) ⟨2, ![A, K]⟩ c rfl rfl (2 * A) (by simp; omega) (ix2 j k) hoff rfl
  | ⟨3, _⟩ =>
    exact concatenate_apply_piece (t := ⟨2, ![N, K]⟩) 0 [⟨⟨2, ![A, K]⟩, a⟩, ⟨⟨2, ![A, K]⟩, b⟩, ⟨⟨2, ![A, K]⟩, c⟩, ⟨⟨2, ![A, K]⟩, d⟩] hcat _ 3 (by simp) ⟨2, ![A, K]⟩ d rfl rfl (3 * A) (by simp; omega) (ix2 j k) hoff rfl

/-- The same with the result's row count written 4 * A. -/
theorem cat4_rows_apply {A K : ℕ} (a b c d : (⟨2, ![A, K]⟩ : Shape).Idx → α)
    (hcat : Shape.Concatenates [⟨2, ![A, K]⟩, ⟨2, ![A, K]⟩, ⟨2, ![A, K]⟩, ⟨2, ![A, K]⟩] ⟨2, ![4 * A, K]⟩ 0)
    (g : Fin 4) (j : Fin A) (k : Fin K) (hn : g.val * A + j.val < 4 * A) :
    concatenate ⟨2, ![4 * A, K]⟩ 0 [⟨⟨2, ![A, K]⟩, a⟩, ⟨⟨2, ![A, K]⟩, b⟩, ⟨⟨2, ![A, K]⟩, c⟩, ⟨⟨2, ![A, K]⟩, d⟩] hcat (ix2 ⟨g.val * A + j.val, hn⟩ k)
      = (match g with | 0 => a | 1 => b | 2 => c | 3 => d) (ix2 j k) :=
  cat4_rows_apply' a b c d hcat g j k hn

/-- Four vectors of length A laid end to end into one of length N: entry g * A + j is entry j of piece g. -/
theorem cat4_vec_apply' {A N : ℕ} (a b c d : (⟨1, ![A]⟩ : Shape).Idx → α)
    (hcat : Shape.Concatenates [⟨1, ![A]⟩, ⟨1, ![A]⟩, ⟨1, ![A]⟩, ⟨1, ![A]⟩] ⟨1, ![N]⟩ 0)
    (g : Fin 4) (j : Fin A) (hn : g.val * A + j.val < N) :
    concatenate ⟨1, ![N]⟩ 0 [⟨⟨1, ![A]⟩, a⟩, ⟨⟨1, ![A]⟩, b⟩, ⟨⟨1, ![A]⟩, c⟩, ⟨⟨1, ![A]⟩, d⟩] hcat (ix1 ⟨g.val * A + j.val, hn⟩)
      = (match g with | 0 => a | 1 => b | 2 => c | 3 => d) (ix1 j) := by
  -- there is no axis off the concatenated one
  have hoff : ∀ (b' : Fin 1), b'.cast (rfl : (⟨1, ![A]⟩ : Shape).rank = (⟨1, ![N]⟩ : Shape).rank) ≠ (0 : Fin 1) →
      ((ix1 j : (⟨1, ![A]⟩ : Shape).Idx) b').val = ((ix1 (⟨g.val * A + j.val, hn⟩ : Fin N) : (⟨1, ![N]⟩ : Shape).Idx) (b'.cast rfl)).val := fun b' hb => by
    match b' with
    | ⟨0, _⟩ => exact absurd rfl hb
  match g with
  | ⟨0, _⟩ =>
    exact concatenate_apply_piece (t := ⟨1, ![N]⟩) 0 [⟨⟨1, ![A]⟩, a⟩, ⟨⟨1, ![A]⟩, b⟩, ⟨⟨1, ![A]⟩, c⟩, ⟨⟨1, ![A]⟩, d⟩] hcat _ 0 (by simp) ⟨1, ![A]⟩ a rfl rfl (0 * A) (by simp) (ix1 j) hoff rfl
  | ⟨1, _⟩ =>
    exact concatenate_apply_piece (t := ⟨1, ![N]⟩) 0 [⟨⟨1, ![A]⟩, a⟩, ⟨⟨1, ![A]⟩, b⟩, ⟨⟨1, ![A]⟩, c⟩, ⟨⟨1, ![A]⟩, d⟩] hcat _ 1 (by simp) ⟨1, ![A]⟩ b rfl rfl (1 * A) (by simp) (ix1 j) hoff rfl
  | ⟨2, _⟩ =>
    exact concatenate_apply_piece (t := ⟨1, ![N]⟩) 0 [⟨⟨1, ![A]⟩, a⟩, ⟨⟨1, ![A]⟩, b⟩, ⟨⟨1, ![A]⟩, c⟩, ⟨⟨1, ![A]⟩, d⟩] hcat _ 2 (by simp) ⟨1, ![A]⟩ c rfl rfl (2 * A) (by simp; omega) (ix1 j) hoff rfl
  | ⟨3, _⟩ =>
    exact concatenate_apply_piece (t := ⟨1, ![N]⟩) 0 [⟨⟨1, ![A]⟩, a⟩, ⟨⟨1, ![A]⟩, b⟩, ⟨⟨1, ![A]⟩, c⟩, ⟨⟨1, ![A]⟩, d⟩] hcat _ 3 (by simp) ⟨1, ![A]⟩ d rfl rfl (3 * A) (by simp; omega) (ix1 j) hoff rfl

/-- The same with the result's length written 4 * A. -/
theorem cat4_vec_apply {A : ℕ} (a b c d : (⟨1, ![A]⟩ : Shape).Idx → α)
    (hcat : Shape.Concatenates [⟨1, ![A]⟩, ⟨1, ![A]⟩, ⟨1, ![A]⟩, ⟨1, ![A]⟩] ⟨1, ![4 * A]⟩ 0)
    (g : Fin 4) (j : Fin A) (hn : g.val * A + j.val < 4 * A) :
    concatenate ⟨1, ![4 * A]⟩ 0 [⟨⟨1, ![A]⟩, a⟩, ⟨⟨1, ![A]⟩, b⟩, ⟨⟨1, ![A]⟩, c⟩, ⟨⟨1, ![A]⟩, d⟩] hcat (ix1 ⟨g.val * A + j.val, hn⟩)
      = (match g with | 0 => a | 1 => b | 2 => c | 3 => d) (ix1 j) :=
  cat4_vec_apply' a b c d hcat g j hn

end Cert.Cat4

end
-- ==== Proof.HostPrefix.lean ====
/-
  What the three arrays prepared on the host for the LSTM kernel hold, entry by entry: the four gates' input-weight
  matrices stacked along the rows (row g * 1024 + j is row j of gate g's matrix; the rounding to bf16 is the identity
  over the extended reals), the four recurrent-weight matrices stacked the same way, and the four gates' summed biases
  laid end to end and viewed as one row.
-/
import proofs.«100066_j7112465842327_2_alg».proof.Proof.Gen.KernelIdeal.Launch
import proofs.«100066_j7112465842327_2_alg».proof.Proof.ParamsKI
import proofs.«100066_j7112465842327_2_alg».proof.Proof.LibCat4
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostPrefix

open Idealize.ShloMosaic Idealize.ShloMosaic.TcCoe Idealize.SL.Sem Idealize.ShloMosaic.ValueIdx

variable (m : (ℓ : Loc nD τ sig) → Buf (Elt Ideal) ℓ) (c : Dev nD)

/-- Device `c`'s arrays once the host operations before the kernel have run. -/
abbrev Vh (b : Ref sig .tc) : Buf (Elt Ideal) ((c : Thread nD τ).loc b) :=
  StableHlo.after (Gen.hostOps0 (F := Ideal)) (fun b => m (c, b)) b

/-- Unfolds the run of the host operations at one array: each operation's result at its own array is its function
    of the operands' contents, and at any other array what was there before. -/
macro "host_results" : tactic =>
  `(tactic| (simp only [StableHlo.after_cons, StableHlo.after_nil]
             repeat (first
               | rw [StableHlo.unary_result] | rw [StableHlo.binary_result] | rw [StableHlo.reshape_result]
               | rw [StableHlo.nary4_result]
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- Four square matrices stacked along the rows, read at row `g * 1024 + j`: matrix `g` at row `j`. -/
theorem rows_read (a b c d : FVec Ideal S1024x1024 .f32) (g : Fin 4) (j k : Fin 1024)
    (hn : g.val * 1024 + j.val < 4096) :
    concatenate S4096x1024 0 [⟨S1024x1024, a⟩, ⟨S1024x1024, b⟩, ⟨S1024x1024, c⟩, ⟨S1024x1024, d⟩]
        Gen.concatenates_S1024x1024_S1024x1024_S1024x1024_S1024x1024_S4096x1024_d0 (ix2 ⟨g.val * 1024 + j.val, hn⟩ k)
      = (match g with | 0 => a | 1 => b | 2 => c | 3 => d) (ix2 j k) :=
  Cert.Cat4.cat4_rows_apply' a b c d _ g j k hn

/-- Four vectors laid end to end and viewed as one row, read at column `g * 1024 + j`: vector `g` at `j`. -/
theorem row_read (a b c d : FVec Ideal S1024 .f32) (g : Fin 4) (j : Fin 1024) (hn : g.val * 1024 + j.val < 4096) :
    shapeCast S1x4096 (concatenate S4096 0 [⟨S1024, a⟩, ⟨S1024, b⟩, ⟨S1024, c⟩, ⟨S1024, d⟩]
        Gen.concatenates_S1024_S1024_S1024_S1024_S4096_d0) Gen.shapeCasts_S4096_S1x4096
        (ix2 (0 : Fin 1) ⟨g.val * 1024 + j.val, hn⟩)
      = (match g with | 0 => a | 1 => b | 2 => c | 3 => d) (ix1 j) :=
  (shapeCast_a_1a_apply _ _ (0 : Fin 1) ⟨g.val * 1024 + j.val, hn⟩).trans
    (Cert.Cat4.cat4_vec_apply' a b c d _ g j hn)

/-- The stacked input weights as the host operations build them: the four gates' matrices one under the other
    (the rounding to bf16 that follows is the identity over the extended reals). -/
theorem v1_eq : (Vh m c main_v1 : S4096x1024.Idx → EReal) =
    concatenate S4096x1024 0
      [⟨S1024x1024, (m ((c : Thread nD τ).loc main_arg3) : S1024x1024.Idx → EReal)⟩,
       ⟨S1024x1024, (m ((c : Thread nD τ).loc main_arg7) : S1024x1024.Idx → EReal)⟩,
       ⟨S1024x1024, (m ((c : Thread nD τ).loc main_arg11) : S1024x1024.Idx → EReal)⟩,
       ⟨S1024x1024, (m ((c : Thread nD τ).loc main_arg15) : S1024x1024.Idx → EReal)⟩]
      Gen.concatenates_S1024x1024_S1024x1024_S1024x1024_S1024x1024_S4096x1024_d0 := by
  dsimp only [Vh, Gen.hostOps0]
  host_results
  rfl

/-- The stacked recurrent weights, likewise. -/
theorem v3_eq : (Vh m c main_v3 : S4096x1024.Idx → EReal) =
    concatenate S4096x1024 0
      [⟨S1024x1024, (m ((c : Thread nD τ).loc main_arg5) : S1024x1024.Idx → EReal)⟩,
       ⟨S1024x1024, (m ((c : Thread nD τ).loc main_arg9) : S1024x1024.Idx → EReal)⟩,
       ⟨S1024x1024, (m ((c : Thread nD τ).loc main_arg13) : S1024x1024.Idx → EReal)⟩,
       ⟨S1024x1024, (m ((c : Thread nD τ).loc main_arg17) : S1024x1024.Idx → EReal)⟩]
      Gen.concatenates_S1024x1024_S1024x1024_S1024x1024_S1024x1024_S4096x1024_d0 := by
  dsimp only [Vh, Gen.hostOps0]
  host_results
  rfl

/-- The bias row as the host operations build it: the four gates' summed biases laid end to end, viewed as a matrix
    of one row. -/
theorem v9_eq : (Vh m c main_v9 : S1x4096.Idx → EReal) =
    (shapeCast S1x4096 (concatenate S4096 0
      [⟨S1024, (addf (F := Ideal) (φ := .f32) (m ((c : Thread nD τ).loc main_arg4)) (m ((c : Thread nD τ).loc main_arg6)) : S1024.Idx → EReal)⟩,
       ⟨S1024, (addf (F := Ideal) (φ := .f32) (m ((c : Thread nD τ).loc main_arg8)) (m ((c : Thread nD τ).loc main_arg10)) : S1024.Idx → EReal)⟩,
       ⟨S1024, (addf (F := Ideal) (φ := .f32) (m ((c : Thread nD τ).loc main_arg12)) (m ((c : Thread nD τ).loc main_arg14)) : S1024.Idx → EReal)⟩,
       ⟨S1024, (addf (F := Ideal) (φ := .f32) (m ((c : Thread nD τ).loc main_arg16)) (m ((c : Thread nD τ).loc main_arg18)) : S1024.Idx → EReal)⟩]
      Gen.concatenates_S1024_S1024_S1024_S1024_S4096_d0) Gen.shapeCasts_S4096_S1x4096 : S1x4096.Idx → EReal) := by
  dsimp only [Vh, Gen.hostOps0]
  simp only [StableHlo.after_cons, StableHlo.after_nil]
  rw [StableHlo.reshape_result, StableHlo.nary4_result]
  simp (disch := decide) only [StableHlo.binary_result', StableHlo.binary_result_ne', StableHlo.unary_result_ne',
    StableHlo.nary_result_ne']
  rfl

/-- Row `g * 1024 + j` of the stacked input weights is row `j` of gate `g`'s input weights. -/
theorem wcat_apply (g : Fin 4) (j k : Fin 1024) (hn : g.val * 1024 + j.val < 4096) :
    (Vh m c main_v1 : S4096x1024.Idx → EReal) (ix2 ⟨g.val * 1024 + j.val, hn⟩ k) = (P m c).W g j k := by
  refine (congrFun (v1_eq m c) _).trans ?_
  refine (rows_read (m ((c : Thread nD τ).loc main_arg3)) (m ((c : Thread nD τ).loc main_arg7))
    (m ((c : Thread nD τ).loc main_arg11)) (m ((c : Thread nD τ).loc main_arg15)) g j k hn).trans ?_
  clear hn
  match g with
  | ⟨0, _⟩ => rfl
  | ⟨1, _⟩ => rfl
  | ⟨2, _⟩ => rfl
  | ⟨3, _⟩ => rfl

/-- Row `g * 1024 + j` of the stacked recurrent weights is row `j` of gate `g`'s recurrent weights. -/
theorem ucat_apply (g : Fin 4) (j k : Fin 1024) (hn : g.val * 1024 + j.val < 4096) :
    (Vh m c main_v3 : S4096x1024.Idx → EReal) (ix2 ⟨g.val * 1024 + j.val, hn⟩ k) = (P m c).U g j k := by
  refine (congrFun (v3_eq m c) _).trans ?_
  refine (rows_read (m ((c : Thread nD τ).loc main_arg5)) (m ((c : Thread nD τ).loc main_arg9))
    (m ((c : Thread nD τ).loc main_arg13)) (m ((c : Thread nD τ).loc main_arg17)) g j k hn).trans ?_
  clear hn
  match g with
  | ⟨0, _⟩ => rfl
  | ⟨1, _⟩ => rfl
  | ⟨2, _⟩ => rfl
  | ⟨3, _⟩ => rfl

/-- Entry `g * 1024 + j` of the bias row is the sum of gate `g`'s two biases at unit `j`. -/
theorem bias_apply (g : Fin 4) (j : Fin 1024) (hn : g.val * 1024 + j.val < 4096) :
    (Vh m c main_v9 : S1x4096.Idx → EReal) (ix2 (0 : Fin 1) ⟨g.val * 1024 + j.val, hn⟩)
      = (P m c).b g j + (P m c).d g j := by
  refine (congrFun (v9_eq m c) _).trans ?_
  refine (row_read
    (addf (F := Ideal) (φ := .f32) (m ((c : Thread nD τ).loc main_arg4)) (m ((c : Thread nD τ).loc main_arg6)))
    (addf (F := Ideal) (φ := .f32) (m ((c : Thread nD τ).loc main_arg8)) (m ((c : Thread nD τ).loc main_arg10)))
    (addf (F := Ideal) (φ := .f32) (m ((c : Thread nD τ).loc main_arg12)) (m ((c : Thread nD τ).loc main_arg14)))
    (addf (F := Ideal) (φ := .f32) (m ((c : Thread nD τ).loc main_arg16)) (m ((c : Thread nD τ).loc main_arg18)))
    g j hn).trans ?_
  clear hn
  match g with
  | ⟨0, _⟩ => rfl
  | ⟨1, _⟩ => rfl
  | ⟨2, _⟩ => rfl
  | ⟨3, _⟩ => rfl

end Cert.KernelIdeal.HostPrefix

end
-- ==== Proof.KernelValue.lean ====
/-
  From the kernel's frame run to its value: after the run each of the two result arrays is the specification's array.

  The grid has 32 points; point t stages rows t * 256 … t * 256 + 255 of x, h and the old cell state, the two stacked
  weight matrices and the bias row whole, and writes back rows t * 256 … of the two results. Over one block of rows the
  body's payloads are the cell's pre-activations (column g * 1024 + j of the fused product is gate g's pre-activation of
  unit j), its new cell state and its new hidden state (pre_of_block, cell_of_block, hidden_of_block, over variables).
  Each staged block is read off the arrays as the region finds them (iblk0_apply … iblk5_apply: a block's coordinate in
  its array is block index * block size + the coordinate inside the block), so what point t writes back is block t of
  the specification's array (flushed6_eq, flushed7_eq); the 32 blocks cover the 8192 rows (row r is in the block of
  point r / 256), so the arrays end holding the specification's arrays (final6, final7), and the run is the frame run
  read with those equations, the arguments unchanged (run).
-/
import proofs.«100066_j7112465842327_2_alg».proof.Proof.FrameKI
import proofs.«100066_j7112465842327_2_alg».proof.Proof.Payload
import proofs.«100066_j7112465842327_2_alg».proof.Proof.HostPrefix
import proofs.«100066_j7112465842327_2_alg».proof.Proof.ParamsKI
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## One block of rows, over variables

A block of 256 rows of the batch, its three data blocks x, h, c0 holding rows `r p` of the cell's data `Q`, the two
stacked weight matrices w, u holding gate g's unit j in row g * 1024 + j, and the bias row b holding the sum of gate g's
two biases of unit j in column g * 1024 + j: the three payloads are the cell's pre-activations, new cell state and new
hidden state of those rows. -/

section Block

variable (Q : Cert.Lstm.Params) (r : Fin 256 → Fin 8192)
variable (x h c0 : Vec Ideal S256x1024 .f32) (w u : Vec Ideal S4096x1024 .bf16) (b : Vec Ideal S1x4096 .f32)
variable (hx : ∀ (p : Fin 256) (k : Fin 1024), x (ix2 p k) = Q.x (r p) k)
variable (hh : ∀ (p : Fin 256) (k : Fin 1024), h (ix2 p k) = Q.h (r p) k)
variable (hc : ∀ (p : Fin 256) (k : Fin 1024), c0 (ix2 p k) = Q.c (r p) k)
variable (hw : ∀ (g : Fin 4) (j k : Fin 1024) (hn : g.val * 1024 + j.val < 4096), w (ix2 ⟨g.val * 1024 + j.val, hn⟩ k) = Q.W g j k)
variable (hu : ∀ (g : Fin 4) (j k : Fin 1024) (hn : g.val * 1024 + j.val < 4096), u (ix2 ⟨g.val * 1024 + j.val, hn⟩ k) = Q.U g j k)
variable (hb : ∀ (g : Fin 4) (j : Fin 1024) (hn : g.val * 1024 + j.val < 4096), b (ix2 (0 : Fin 1) ⟨g.val * 1024 + j.val, hn⟩) = Q.b g j + Q.d g j)

include hx hh hw hu hb in
/-- Column g * 1024 + j of the fused pre-activation is gate g's pre-activation of unit j. -/
theorem pre_of_block (p : Fin 256) (g : Fin 4) (j : Fin 1024) (n : Nat) (hlt : n < 4096) (hn : n = g.val * 1024 + j.val) :
    k0_pay1 (F := Ideal) x h w u b (ix2 p ⟨n, hlt⟩) = Q.pre g (r p) j := by
  subst hn
  refine (Payload.pay1_apply x h w u b p _).trans ?_
  unfold Cert.Lstm.Params.pre
  rw [hb g j hlt]
  congr 1
  congr 1
  · exact Finset.sum_congr rfl fun k _ => by rw [hx, hw]
  · exact Finset.sum_congr rfl fun k _ => by rw [hh, hu]

include hx hh hc hw hu hb in
/-- The second payload is the new cell state. -/
theorem cell_of_block (p : Fin 256) (q : Fin 1024) :
    k0_pay2 (F := Ideal) x h c0 w u b (ix2 p q) = Q.cell (r p) q := by
  refine (Payload.pay2_apply x h c0 w u b p q).trans ?_
  rw [pre_of_block Q r x h w u b hx hh hw hu hb p 1 q (1024 + q.val) _ (by show _ = 1 * 1024 + q.val; omega),
    pre_of_block Q r x h w u b hx hh hw hu hb p 0 q q.val _ (by show _ = 0 * 1024 + q.val; omega),
    pre_of_block Q r x h w u b hx hh hw hu hb p 2 q (2048 + q.val) _ (by show _ = 2 * 1024 + q.val; omega), hc]
  rfl

include hx hh hc hw hu hb in
/-- The third payload is the new hidden state. -/
theorem hidden_of_block (p : Fin 256) (q : Fin 1024) :
    k0_pay3 (F := Ideal) x h c0 w u b (ix2 p q) = Q.hidden (r p) q := by
  refine (Payload.pay3_apply x h c0 w u b p q).trans ?_
  rw [pre_of_block Q r x h w u b hx hh hw hu hb p 3 q (3072 + q.val) _ (by show _ = 3 * 1024 + q.val; omega),
    cell_of_block Q r x h c0 w u b hx hh hc hw hu hb p q]
  rfl

end Block

/-! ## The blocks at a grid point -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 grid points: the three data windows and the two result windows take
    block row t at point t, the two weight windows and the bias window their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 32 := lt_of_lt_of_eq t.isLt N_0

/-- Row p of the block of grid point t is row t * 256 + p of the batch. -/
def row (t : Fin cfg0.N) (p : Fin 256) : Fin 8192 := ⟨t.val * 256 + p.val, by have := point_lt t; omega⟩

/-- The first data window's block at point t holds rows t * 256 … of x. -/
theorem iblk0_apply (c : Dev nD) (t : Fin cfg0.N) (p : Fin 256) (k : Fin 1024) :
    (Hand.iblk m c 0 t : Vec Ideal S256x1024 .f32) (ix2 p k) = (P m c).x (row t p) k := by
  obtain ⟨e0, e1, -⟩ := idx_facts t
  unfold Hand.iblk
  rw [View.read_apply]
  show Hand.V m c main_arg0 (((cfg0.win 0).blk t).view.emb (ix2 p k)) = m ((c : Thread nD τ).loc main_arg0) (ix2 (row t p) k)
  refine (congrFun (Hand.V_main_arg0 m c) _).trans (congrArg _ ?_)
  funext a
  apply Fin.ext
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- The second data window's block at point t holds rows t * 256 … of h. -/
theorem iblk1_apply (c : Dev nD) (t : Fin cfg0.N) (p : Fin 256) (k : Fin 1024) :
    (Hand.iblk m c 1 t : Vec Ideal S256x1024 .f32) (ix2 p k) = (P m c).h (row t p) k := by
  obtain ⟨-, -, e0, e1, -⟩ := idx_facts t
  unfold Hand.iblk
  rw [View.read_apply]
  show Hand.V m c main_arg1 (((cfg0.win 1).blk t).view.emb (ix2 p k)) = m ((c : Thread nD τ).loc main_arg1) (ix2 (row t p) k)
  refine (congrFun (Hand.V_main_arg1 m c) _).trans (congrArg _ ?_)
  funext a
  apply Fin.ext
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- The third data window's block at point t holds rows t * 256 … of the old cell state. -/
theorem iblk2_apply (c : Dev nD) (t : Fin cfg0.N) (p : Fin 256) (k : Fin 1024) :
    (Hand.iblk m c 2 t : Vec Ideal S256x1024 .f32) (ix2 p k) = (P m c).c (row t p) k := by
  obtain ⟨-, -, -, -, e0, e1, -⟩ := idx_facts t
  unfold Hand.iblk
  rw [View.read_apply]
  show Hand.V m c main_arg2 (((cfg0.win 2).blk t).view.emb (ix2 p k)) = m ((c : Thread nD τ).loc main_arg2) (ix2 (row t p) k)
  refine (congrFun (Hand.V_main_arg2 m c) _).trans (congrArg _ ?_)
  funext a
  apply Fin.ext
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-- The stacked input weights' window is its whole array at every point. -/
theorem iblk3_apply (c : Dev nD) (t : Fin cfg0.N) (n : Fin 4096) (k : Fin 1024) :
    (Hand.iblk m c 3 t : Vec Ideal S4096x1024 .bf16) (ix2 n k) = (Hand.V m c main_v1 : S4096x1024.Idx → EReal) (ix2 n k) := by
  obtain ⟨-, -, -, -, -, -, e0, e1, -⟩ := idx_facts t
  unfold Hand.iblk
  rw [View.read_apply]
  show Hand.V m c main_v1 (((cfg0.win 3).blk t).view.emb (ix2 n k)) = Hand.V m c main_v1 (ix2 n k)
  refine congrArg _ ?_
  funext a
  apply Fin.ext
  match a with
  | ⟨0, _⟩ => show win0_3.index t (0 : Fin 2) * 4096 + 1 * n.val = n.val; rw [e0]; omega
  | ⟨1, _⟩ => show win0_3.index t (1 : Fin 2) * 1024 + 1 * k.val = k.val; rw [e1]; omega

/-- The stacked recurrent weights' window is its whole array at every point. -/
theorem iblk4_apply (c : Dev nD) (t : Fin cfg0.N) (n : Fin 4096) (k : Fin 1024) :
    (Hand.iblk m c 4 t : Vec Ideal S4096x1024 .bf16) (ix2 n k) = (Hand.V m c main_v3 : S4096x1024.Idx → EReal) (ix2 n k) := by
  obtain ⟨-, -, -, -, -, -, -, -, e0, e1, -⟩ := idx_facts t
  unfold Hand.iblk
  rw [View.read_apply]
  show Hand.V m c main_v3 (((cfg0.win 4).blk t).view.emb (ix2 n k)) = Hand.V m c main_v3 (ix2 n k)
  refine congrArg _ ?_
  funext a
  apply Fin.ext
  match a with
  | ⟨0, _⟩ => show win0_4.index t (0 : Fin 2) * 4096 + 1 * n.val = n.val; rw [e0]; omega
  | ⟨1, _⟩ => show win0_4.index t (1 : Fin 2) * 1024 + 1 * k.val = k.val; rw [e1]; omega

/-- The bias row's window is its whole array at every point. -/
theorem iblk5_apply (c : Dev nD) (t : Fin cfg0.N) (z : Fin 1) (n : Fin 4096) :
    (Hand.iblk m c 5 t : Vec Ideal S1x4096 .f32) (ix2 z n) = (Hand.V m c main_v9 : S1x4096.Idx → EReal) (ix2 z n) := by
  obtain ⟨-, -, -, -, -, -, -, -, -, -, e0, e1, -⟩ := idx_facts t
  unfold Hand.iblk
  rw [View.read_apply]
  show Hand.V m c main_v9 (((cfg0.win 5).blk t).view.emb (ix2 z n)) = Hand.V m c main_v9 (ix2 z n)
  refine congrArg _ ?_
  funext a
  apply Fin.ext
  match a with
  | ⟨0, _⟩ => show win0_5.index t (0 : Fin 2) * 1 + 1 * z.val = z.val; rw [e0]; omega
  | ⟨1, _⟩ => show win0_5.index t (1 : Fin 2) * 4096 + 1 * n.val = n.val; rw [e1]; omega

/-! ## What each point writes back -/

/-- A function of a 256 x 1024 block is determined by its values at pairs of coordinates. -/
theorem funext_ix2 {n0 n1 : Nat} {α : Type} (f g : (⟨2, ![n0, n1]⟩ : Shape).Idx → α) (hfg : ∀ (a : Fin n0) (b : Fin n1), f (ix2 a b) = g (ix2 a b)) : f = g :=
  funext fun i => by rw [eq_ix2 i]; exact hfg _ _

/-- An element of the result windows' block at point t sits in the array at row t * 256 + p, same column. -/
theorem emb6 (t : Fin cfg0.N) (p : Fin 256) (q : Fin 1024) :
    ((cfg0.win 6).blk t).view.emb (ix2 p q) = ix2 (row t p) q := by
  obtain ⟨-, -, -, -, -, -, -, -, -, -, -, -, e0, e1, -⟩ := idx_facts t
  funext a
  apply Fin.ext
  match a with
  | ⟨0, _⟩ => show win0_6.index t (0 : Fin 2) * 256 + 1 * p.val = t.val * 256 + p.val; rw [e0]; omega
  | ⟨1, _⟩ => show win0_6.index t (1 : Fin 2) * 1024 + 1 * q.val = q.val; rw [e1]; omega

theorem emb7 (t : Fin cfg0.N) (p : Fin 256) (q : Fin 1024) :
    ((cfg0.win 7).blk t).view.emb (ix2 p q) = ix2 (row t p) q := by
  obtain ⟨-, -, -, -, -, -, -, -, -, -, -, -, -, -, e0, e1⟩ := idx_facts t
  funext a
  apply Fin.ext
  match a with
  | ⟨0, _⟩ => show win0_7.index t (0 : Fin 2) * 256 + 1 * p.val = t.val * 256 + p.val; rw [e0]; omega
  | ⟨1, _⟩ => show win0_7.index t (1 : Fin 2) * 1024 + 1 * q.val = q.val; rw [e1]; omega

/-- What point t writes back to the cell-state result is block t of the specification's new cell state. -/
theorem flushed7_eq (c : Dev nD) (t : Fin cfg0.N) :
    (Hand.dats m 0 c).flushed 7 t = ((cfg0.win 7).blk t).view.read (Elt Ideal) (P m c).cellArr := by
  show (cfg0.win 7).cut (grid0.coords t) ((Hand.dats m 0 c).after 7 t) = _
  rw [Hand.after0_7]
  unfold Hand.out0_7
  rw [View.canon_unit_zero hz]
  simp only [View.ld_unit_zero (S := S256x1024) hz, View.ld_unit_zero (S := S4096x1024) hz, View.ld_unit_zero (S := S1x4096) hz]
  refine funext_ix2 _ _ fun p q => ?_
  show k0_pay2 (F := Ideal) (Hand.iblk m c 0 t) (Hand.iblk m c 1 t) (Hand.iblk m c 2 t) (Hand.iblk m c 3 t) (Hand.iblk m c 4 t) (Hand.iblk m c 5 t) (ix2 p q)
    = (P m c).cellArr (((cfg0.win 7).blk t).view.emb (ix2 p q))
  rw [emb7 t p q, Cert.Lstm.Params.cellArr_ix2]
  exact cell_of_block (P m c) (row t) (Hand.iblk m c 0 t) (Hand.iblk m c 1 t) (Hand.iblk m c 2 t) (Hand.iblk m c 3 t) (Hand.iblk m c 4 t) (Hand.iblk m c 5 t)
    (iblk0_apply m c t) (iblk1_apply m c t) (iblk2_apply m c t)
    (fun g j k hn => (iblk3_apply m c t _ k).trans (HostPrefix.wcat_apply m c g j k hn))
    (fun g j k hn => (iblk4_apply m c t _ k).trans (HostPrefix.ucat_apply m c g j k hn))
    (fun g j hn => (iblk5_apply m c t 0 _).trans (HostPrefix.bias_apply m c g j hn)) p q

/-- What point t writes back to the hidden-state result is block t of the specification's new hidden state. -/
theorem flushed6_eq (c : Dev nD) (t : Fin cfg0.N) :
    (Hand.dats m 0 c).flushed 6 t = ((cfg0.win 6).blk t).view.read (Elt Ideal) (P m c).hiddenArr := by
  show (cfg0.win 6).cut (grid0.coords t) ((Hand.dats m 0 c).after 6 t) = _
  rw [Hand.after0_6]
  unfold Hand.out0_6
  rw [View.canon_unit_zero hz]
  simp only [View.ld_unit_zero (S := S256x1024) hz, View.ld_unit_zero (S := S4096x1024) hz, View.ld_unit_zero (S := S1x4096) hz]
  refine funext_ix2 _ _ fun p q => ?_
  show k0_pay3 (F := Ideal) (Hand.iblk m c 0 t) (Hand.iblk m c 1 t) (Hand.iblk m c 2 t) (Hand.iblk m c 3 t) (Hand.iblk m c 4 t) (Hand.iblk m c 5 t) (ix2 p q)
    = (P m c).hiddenArr (((cfg0.win 6).blk t).view.emb (ix2 p q))
  rw [emb6 t p q, Cert.Lstm.Params.hiddenArr_ix2]
  exact hidden_of_block (P m c) (row t) (Hand.iblk m c 0 t) (Hand.iblk m c 1 t) (Hand.iblk m c 2 t) (Hand.iblk m c 3 t) (Hand.iblk m c 4 t) (Hand.iblk m c 5 t)
    (iblk0_apply m c t) (iblk1_apply m c t) (iblk2_apply m c t)
    (fun g j k hn => (iblk3_apply m c t _ k).trans (HostPrefix.wcat_apply m c g j k hn))
    (fun g j k hn => (iblk4_apply m c t _ k).trans (HostPrefix.ucat_apply m c g j k hn))
    (fun g j hn => (iblk5_apply m c t 0 _).trans (HostPrefix.bias_apply m c g j hn)) p q

/-! ## The blocks cover the arrays -/

/-- An index of the array is in point t's block iff each coordinate is in the block's range on its axis. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- The grid point whose block holds row r: r / 256. -/
def pointOf (i : S8192x1024.Idx) : Fin cfg0.N := ⟨(i 0).val / 256, by
  have h0 : (i 0).val < 8192 := (i 0).isLt
  rw [show cfg0.N = 32 from N_0]; omega⟩

/-- Every index of the hidden-state result is in the block of the point its row names. -/
theorem cover6 (i : S8192x1024.Idx) : ∃ t : Fin cfg0.N, (cfg0.win 6).flush t = true ∧ i ∈ ((cfg0.win 6).blk t).view.set := by
  refine ⟨pointOf i, flush0_6 _, ?_⟩
  rw [mem_blk6]
  obtain ⟨-, -, -, -, -, -, -, -, -, -, -, -, e0, e1, -⟩ := idx_facts (pointOf i)
  have h0 : (i 0).val < 8192 := (i 0).isLt
  have h1 : (i 1).val < 1024 := (i 1).isLt
  have ht : (pointOf i).val = (i 0).val / 256 := rfl
  intro a
  match a with
  | ⟨0, _⟩ => show win0_6.index (pointOf i) (0 : Fin 2) * 256 ≤ (i 0).val ∧ (i 0).val < win0_6.index (pointOf i) (0 : Fin 2) * 256 + 256; rw [e0, ht]; omega
  | ⟨1, _⟩ => show win0_6.index (pointOf i) (1 : Fin 2) * 1024 ≤ (i 1).val ∧ (i 1).val < win0_6.index (pointOf i) (1 : Fin 2) * 1024 + 1024; rw [e1]; omega

/-- Every index of the cell-state result is in the block of the point its row names. -/
theorem cover7 (i : S8192x1024.Idx) : ∃ t : Fin cfg0.N, (cfg0.win 7).flush t = true ∧ i ∈ ((cfg0.win 7).blk t).view.set := by
  refine ⟨pointOf i, flush0_7 _, ?_⟩
  rw [mem_blk7]
  obtain ⟨-, -, -, -, -, -, -, -, -, -, -, -, -, -, e0, e1⟩ := idx_facts (pointOf i)
  have h0 : (i 0).val < 8192 := (i 0).isLt
  have h1 : (i 1).val < 1024 := (i 1).isLt
  have ht : (pointOf i).val = (i 0).val / 256 := rfl
  intro a
  match a with
  | ⟨0, _⟩ => show win0_7.index (pointOf i) (0 : Fin 2) * 256 ≤ (i 0).val ∧ (i 0).val < win0_7.index (pointOf i) (0 : Fin 2) * 256 + 256; rw [e0, ht]; omega
  | ⟨1, _⟩ => show win0_7.index (pointOf i) (1 : Fin 2) * 1024 ≤ (i 1).val ∧ (i 1).val < win0_7.index (pointOf i) (1 : Fin 2) * 1024 + 1024; rw [e1]; omega

/-! ## The arrays after the run -/

/-- The hidden-state result after the run is the specification's new hidden state. -/
theorem final6 (c : Dev nD) : (Hand.dats m 0 c).arrAt 6 cfg0.N = (P m c).hiddenArr :=
  (Hand.dats m 0 c).arrAt_eq_of_cover 6 (P m c).hiddenArr (fun t _ => flushed6_eq m c t) cover6

/-- The cell-state result after the run is the specification's new cell state. -/
theorem final7 (c : Dev nD) : (Hand.dats m 0 c).arrAt 7 cfg0.N = (P m c).cellArr :=
  (Hand.dats m 0 c).arrAt_eq_of_cover 7 (P m c).cellArr (fun t _ => flushed7_eq m c t) cover7

/-- The program's run: both results at the specification's arrays, the nineteen arguments as launched. -/
theorem run : θ_run (defs (F := Ideal)) (onTc (τ := τ) (main (F := Ideal))) ⟨m, fun _ => 0, ρ⟩ (fun r => ∀ c : Dev nD,
      r.2.mem ((c.tc : Thread nD τ).loc main_v10_0) = (P m c).hiddenArr
      ∧ r.2.mem ((c.tc : Thread nD τ).loc main_v10_1) = (P m c).cellArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
      ((h c).1 6).trans (final6 m c),
      ((h c).1 7).trans (final7 m c),
      ((h c).1 0).trans (((Hand.dats m 0 c).arrAt_in 0 rfl _).trans ((Hand.A_eq m c 0).trans (Hand.V_main_arg0 m c))),
      ((h c).1 1).trans (((Hand.dats m 0 c).arrAt_in 1 rfl _).trans ((Hand.A_eq m c 1).trans (Hand.V_main_arg1 m c))),
      ((h c).1 2).trans (((Hand.dats m 0 c).arrAt_in 2 rfl _).trans ((Hand.A_eq m c 2).trans (Hand.V_main_arg2 m c))),
      ((h c).2 main_arg3 (Pipeline.mem_restRefs_of main_arg3 (by decide) (by decide))).trans (Hand.V_main_arg3 m c),
      ((h c).2 main_arg4 (Pipeline.mem_restRefs_of main_arg4 (by decide) (by decide))).trans (Hand.V_main_arg4 m c),
      ((h c).2 main_arg5 (Pipeline.mem_restRefs_of main_arg5 (by decide) (by decide))).trans (Hand.V_main_arg5 m c),
      ((h c).2 main_arg6 (Pipeline.mem_restRefs_of main_arg6 (by decide) (by decide))).trans (Hand.V_main_arg6 m c),
      ((h c).2 main_arg7 (Pipeline.mem_restRefs_of main_arg7 (by decide) (by decide))).trans (Hand.V_main_arg7 m c),
      ((h c).2 main_arg8 (Pipeline.mem_restRefs_of main_arg8 (by decide) (by decide))).trans (Hand.V_main_arg8 m c),
      ((h c).2 main_arg9 (Pipeline.mem_restRefs_of main_arg9 (by decide) (by decide))).trans (Hand.V_main_arg9 m c),
      ((h c).2 main_arg10 (Pipeline.mem_restRefs_of main_arg10 (by decide) (by decide))).trans (Hand.V_main_arg10 m c),
      ((h c).2 main_arg11 (Pipeline.mem_restRefs_of main_arg11 (by decide) (by decide))).trans (Hand.V_main_arg11 m c),
      ((h c).2 main_arg12 (Pipeline.mem_restRefs_of main_arg12 (by decide) (by decide))).trans (Hand.V_main_arg12 m c),
      ((h c).2 main_arg13 (Pipeline.mem_restRefs_of main_arg13 (by decide) (by decide))).trans (Hand.V_main_arg13 m c),
      ((h c).2 main_arg14 (Pipeline.mem_restRefs_of main_arg14 (by decide) (by decide))).trans (Hand.V_main_arg14 m c),
      ((h c).2 main_arg15 (Pipeline.mem_restRefs_of main_arg15 (by decide) (by decide))).trans (Hand.V_main_arg15 m c),
      ((h c).2 main_arg16 (Pipeline.mem_restRefs_of main_arg16 (by decide) (by decide))).trans (Hand.V_main_arg16 m c),
      ((h c).2 main_arg17 (Pipeline.mem_restRefs_of main_arg17 (by decide) (by decide))).trans (Hand.V_main_arg17 m c),
      ((h c).2 main_arg18 (Pipeline.mem_restRefs_of main_arg18 (by decide) (by decide))).trans (Hand.V_main_arg18 m c)⟩)
    (Hand.run_main m ρ)

end Cert.KernelIdeal.KValue

end
-- ==== Proof.RefValue.lean ====
/-
  The reference program's two results are the specification's arrays, at the extended reals.

  Each gate of the reference is the same chain of array operations on six of the nineteen arrays: the batch times the
  transposed input weights plus the input bias repeated down the batch, the same for the previous hidden state and the
  recurrent weights and bias, and the sum of the two. Read at row r and unit j this is
      (sum_k x r k * W j k + b j) + (sum_k h r k * U j k + d j),
  the specification's pre-activation with each product next to its bias. Three gates then take one over one plus the
  exponential of the negation, which is the logistic function by its definition, and the candidate takes tanh. The new
  cell state is forget * c + input * candidate, and the new hidden state is output * tanh (cell).
-/
import proofs.«100066_j7112465842327_2_alg».proof.Proof.Gen.ReferenceIdeal.Read
import proofs.«100066_j7112465842327_2_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx
open scoped BigOperators

/-- A batch-by-features array of extended reals. -/
abbrev CB : Type := (⟨S8192x1024, .f32⟩ : BufTy).Contents (Elt Ideal)
/-- One gate's weight matrix. -/
abbrev CW : Type := (⟨S1024x1024, .f32⟩ : BufTy).Contents (Elt Ideal)
/-- One gate's bias vector. -/
abbrev Cv : Type := (⟨S1024, .f32⟩ : BufTy).Contents (Elt Ideal)

/-- A product against the transposed weights, plus the bias row repeated down the batch, entry by entry. -/
theorem lin_apply (x : CB) (w : CW) (b : Cv) (r : Fin 8192) (j : Fin 1024) :
    val_main_v4 (F := Ideal) x w b (ix2 r j) = (∑ k : Fin 1024, x (ix2 r k) * w (ix2 j k)) + b (ix1 j) := by
  rw [val_main_v4_apply, val_main_v1_apply, val_main_v3_apply, val_main_v2_apply, Ideal.addf_def]
  have eb : idx_main_v2 (idx_main_v3 (ix2 r j)) = ix1 j :=
    funext fun a => Fin.ext (by match a with | ⟨0, _⟩ => rfl)
  rw [eb]
  refine congrArg (· + b (ix1 j)) (Finset.sum_congr rfl fun k _ => ?_)
  rw [val_main_v0_apply]
  have el : lidx_main_v1 (ix2 r j) k = ix2 r k :=
    funext fun a => Fin.ext (by match a with | ⟨0, _⟩ => rfl | ⟨1, _⟩ => rfl)
  have er : idx_main_v0 (ridx_main_v1 (ix2 r j) k) = ix2 j k :=
    funext fun a => Fin.ext (by match a with | ⟨0, _⟩ => rfl | ⟨1, _⟩ => rfl)
  rw [el, er]

/-- The summed pre-activation of a gate: each product next to its bias. -/
theorem pre_gen (x h : CB) (w : CW) (b : Cv) (u : CW) (d : Cv) (r : Fin 8192) (j : Fin 1024) :
    val_main_v10 (F := Ideal) x h w b u d (ix2 r j)
      = ((∑ k : Fin 1024, x (ix2 r k) * w (ix2 j k)) + b (ix1 j)) + ((∑ k : Fin 1024, h (ix2 r k) * u (ix2 j k)) + d (ix1 j)) := by
  rw [val_main_v10_apply, show val_main_v9 (F := Ideal) h u d = val_main_v4 (F := Ideal) h u d from rfl, lin_apply, lin_apply,
    Ideal.addf_def]

/-- One over one plus the exponential of the negation is the logistic function. -/
theorem sig_gen (x h : CB) (w : CW) (b : Cv) (u : CW) (d : Cv) (i : S8192x1024.Idx) :
    val_main_v16 (F := Ideal) x h w b u d i = Ideal.logistic (val_main_v10 (F := Ideal) x h w b u d i) := by
  rw [val_main_v16_apply, val_main_v15_apply, val_main_cst_0_apply, val_main_v14_apply, val_main_v13_apply, val_main_cst_apply,
    val_main_v12_apply, val_main_v11_apply, Ideal.hostDivf_def, Ideal.ofBits_def, Ideal.ofBits_one_f32, Ideal.addf_def,
    Ideal.hostUnary_exp_def, Ideal.hostNegf_def, Ideal.negf_def]
  rfl

/-- The four gates' pre-activation stages are one and the same function of their six arrays. -/
theorem v27_eq (x h : CB) (w : CW) (b : Cv) (u : CW) (d : Cv) :
    val_main_v27 (F := Ideal) x h w b u d = val_main_v10 (F := Ideal) x h w b u d := rfl
theorem v44_eq (x h : CB) (w : CW) (b : Cv) (u : CW) (d : Cv) :
    val_main_v44 (F := Ideal) x h w b u d = val_main_v10 (F := Ideal) x h w b u d := rfl
theorem v61_eq (x h : CB) (w : CW) (b : Cv) (u : CW) (d : Cv) :
    val_main_v61 (F := Ideal) x h w b u d = val_main_v10 (F := Ideal) x h w b u d := rfl
/-- So are the three logistic stages. -/
theorem v33_eq (x h : CB) (w : CW) (b : Cv) (u : CW) (d : Cv) :
    val_main_v33 (F := Ideal) x h w b u d = val_main_v16 (F := Ideal) x h w b u d := rfl
theorem v50_eq (x h : CB) (w : CW) (b : Cv) (u : CW) (d : Cv) :
    val_main_v50 (F := Ideal) x h w b u d = val_main_v16 (F := Ideal) x h w b u d := rfl

section
variable (x0 x1 x2 : CB) (x3 : CW) (x4 : Cv) (x5 : CW) (x6 : Cv) (x7 : CW) (x8 : Cv) (x9 : CW) (x10 : Cv)
    (x11 : CW) (x12 : Cv) (x13 : CW) (x14 : Cv) (x15 : CW) (x16 : Cv) (x17 : CW) (x18 : Cv)

/-- The input gate's pre-activation. -/
theorem gate_pre0 (r : Fin 8192) (j : Fin 1024) :
    val_main_v10 (F := Ideal) x0 x1 x3 x4 x5 x6 (ix2 r j) = (Cert.Lstm.params x0 x1 x2 x3 x4 x5 x6 x7 x8 x9 x10 x11 x12 x13 x14 x15 x16 x17 x18).pre 0 r j := by
  rw [pre_gen, Cert.Lstm.Params.pre_eq_split]; rfl
/-- The forget gate's. -/
theorem gate_pre1 (r : Fin 8192) (j : Fin 1024) :
    val_main_v10 (F := Ideal) x0 x1 x7 x8 x9 x10 (ix2 r j) = (Cert.Lstm.params x0 x1 x2 x3 x4 x5 x6 x7 x8 x9 x10 x11 x12 x13 x14 x15 x16 x17 x18).pre 1 r j := by
  rw [pre_gen, Cert.Lstm.Params.pre_eq_split]; rfl
/-- The candidate's. -/
theorem gate_pre2 (r : Fin 8192) (j : Fin 1024) :
    val_main_v10 (F := Ideal) x0 x1 x11 x12 x13 x14 (ix2 r j) = (Cert.Lstm.params x0 x1 x2 x3 x4 x5 x6 x7 x8 x9 x10 x11 x12 x13 x14 x15 x16 x17 x18).pre 2 r j := by
  rw [pre_gen, Cert.Lstm.Params.pre_eq_split]; rfl
/-- The output gate's. -/
theorem gate_pre3 (r : Fin 8192) (j : Fin 1024) :
    val_main_v10 (F := Ideal) x0 x1 x15 x16 x17 x18 (ix2 r j) = (Cert.Lstm.params x0 x1 x2 x3 x4 x5 x6 x7 x8 x9 x10 x11 x12 x13 x14 x15 x16 x17 x18).pre 3 r j := by
  rw [pre_gen, Cert.Lstm.Params.pre_eq_split]; rfl

/-- The new cell state, entry by entry. -/
theorem cell_apply (r : Fin 8192) (j : Fin 1024) :
    val_main_v65 (F := Ideal) x0 x1 x2 x3 x4 x5 x6 x7 x8 x9 x10 x11 x12 x13 x14 (ix2 r j)
      = (Cert.Lstm.params x0 x1 x2 x3 x4 x5 x6 x7 x8 x9 x10 x11 x12 x13 x14 x15 x16 x17 x18).cell r j := by
  rw [val_main_v65_apply, val_main_v63_apply, val_main_v64_apply, val_main_v62_apply, v33_eq, v61_eq, sig_gen, sig_gen,
    gate_pre0 x0 x1 x2 x3 x4 x5 x6 x7 x8 x9 x10 x11 x12 x13 x14 x15 x16 x17 x18, gate_pre1 x0 x1 x2 x3 x4 x5 x6 x7 x8 x9 x10 x11 x12 x13 x14 x15 x16 x17 x18, gate_pre2 x0 x1 x2 x3 x4 x5 x6 x7 x8 x9 x10 x11 x12 x13 x14 x15 x16 x17 x18,
    Ideal.addf_def, Ideal.mulf_def, Ideal.mulf_def, Ideal.hostUnary_tanh_def]
  rfl

/-- The reference's second result is the specification's new cell state. -/
theorem out1_eq :
    val_main_v65 (F := Ideal) x0 x1 x2 x3 x4 x5 x6 x7 x8 x9 x10 x11 x12 x13 x14
      = (Cert.Lstm.params x0 x1 x2 x3 x4 x5 x6 x7 x8 x9 x10 x11 x12 x13 x14 x15 x16 x17 x18).cellArr :=
  Cert.Lstm.Params.eq_cellArr _ _ (cell_apply x0 x1 x2 x3 x4 x5 x6 x7 x8 x9 x10 x11 x12 x13 x14 x15 x16 x17 x18)

/-- The reference's first result is the specification's new hidden state. -/
theorem out0_eq :
    val_main_v67 (F := Ideal) x0 x1 x2 x3 x4 x5 x6 x7 x8 x9 x10 x11 x12 x13 x14 x15 x16 x17 x18
      = (Cert.Lstm.params x0 x1 x2 x3 x4 x5 x6 x7 x8 x9 x10 x11 x12 x13 x14 x15 x16 x17 x18).hiddenArr := by
  refine Cert.Lstm.Params.eq_hiddenArr _ _ fun r j => ?_
  rw [val_main_v67_apply, val_main_v66_apply, v50_eq, sig_gen, gate_pre3 x0 x1 x2 x3 x4 x5 x6 x7 x8 x9 x10 x11 x12 x13 x14 x15 x16 x17 x18, cell_apply x0 x1 x2 x3 x4 x5 x6 x7 x8 x9 x10 x11 x12 x13 x14 x15 x16 x17 x18,
    Ideal.mulf_def, Ideal.hostUnary_tanh_def]
  rfl

end

end Cert.ReferenceIdeal.RefValue

end
-- ==== Proof.lean ====
/-
  One step of an LSTM cell (batch 8192, 1024 inputs, 1024 hidden units): a Pallas kernel that stacks the four gates'
  weight matrices into two 4096 x 1024 matrices and the four gates' summed biases into one row of 4096, and on each
  of 32 blocks of 256 batch rows computes both wide products, adds the bias row, slices the four gates' columns,
  applies logistic / tanh and combines them — against the plain reference that computes each gate's two products
  and two bias additions separately and spells the logistic function 1 / (1 + exp (-z)).

  Over the extended reals both are the function of Proof/Spec.lean, entry by entry:
      pre g r j = (sum_k x r k * W g j k + sum_k h r k * U g j k) + (b g j + d g j)
      cell r j = logistic (pre 1 r j) * c r j + logistic (pre 0 r j) * tanh (pre 2 r j)
      hidden r j = logistic (pre 3 r j) * tanh (cell r j)
  The kernel's rounding of its matmul operands to bf16 is the identity in the ideal reading; a row of a stacked
  matrix is a row of one gate's matrix; the reference's grouping (product + bias) + (product + bias) is the kernel's
  (product + product) + (bias + bias) by commutativity and associativity of addition alone, so finiteness of the
  inputs is never used; the two spellings of the logistic function are one function by definition.

  The modules: Proof/Spec.lean (the function), Proof/FrameK.lean and Proof/FrameKI.lean (each kernel program's run:
  it terminates, faults nowhere, leaves its arguments unchanged, and leaves each output block at the body's
  payload of the input blocks), Proof/HostPrefix.lean (the stacked arrays at an entry), Proof/Payload.lean (the
  body's payloads at an entry), Proof/KernelValue.lean (blocks to whole arrays: the kernel's results are the
  function), Proof/RefValue.lean (the reference's results are the function), and the five claims below.
-/
import proofs.«100066_j7112465842327_2_alg».proof.Defs
import proofs.«100066_j7112465842327_2_alg».proof.Proof.Gen.Kernel
import proofs.«100066_j7112465842327_2_alg».proof.Proof.Gen.Kernel.Skeleton
import proofs.«100066_j7112465842327_2_alg».proof.Proof.Gen.Kernel.Launch
import proofs.«100066_j7112465842327_2_alg».proof.Proof.Gen.Kernel.Points
import proofs.«100066_j7112465842327_2_alg».proof.Proof.Gen.KernelIdeal
import proofs.«100066_j7112465842327_2_alg».proof.Proof.Gen.KernelIdeal.Skeleton
import proofs.«100066_j7112465842327_2_alg».proof.Proof.Gen.KernelIdeal.Launch
import proofs.«100066_j7112465842327_2_alg».proof.Proof.Gen.KernelIdeal.Points
import proofs.«100066_j7112465842327_2_alg».proof.Proof.Gen.ReferenceIdeal
import proofs.«100066_j7112465842327_2_alg».proof.Proof.Gen.ReferenceIdeal.Run
import proofs.«100066_j7112465842327_2_alg».proof.Proof.Gen.ReferenceIdeal.Read
import proofs.«100066_j7112465842327_2_alg».proof.Proof.Gen.Pre_finite_inputs
import proofs.«100066_j7112465842327_2_alg».proof.Proof.Spec
import proofs.«100066_j7112465842327_2_alg».proof.Proof.ParamsKI
import proofs.«100066_j7112465842327_2_alg».proof.Proof.FrameK
import proofs.«100066_j7112465842327_2_alg».proof.Proof.FrameKI
import proofs.«100066_j7112465842327_2_alg».proof.Proof.KernelValue
import proofs.«100066_j7112465842327_2_alg».proof.Proof.RefValue
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel program runs to the end and leaves its nineteen arguments as they were. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 4000000 in
/-- From memories agreeing on the nineteen arguments both programs end with the new hidden state and the new cell
    state of Proof/Spec.lean: the kernel by Proof/KernelValue.lean, the reference by Proof/RefValue.lean read at the
    agreeing arguments. -/
theorem algebraic : Cert.algebraic_KernelIdeal_ReferenceIdeal := by
  intro m ρ m' ρ' _ hagree
  refine ⟨fun c => (Cert.KernelIdeal.P m c).hiddenArr, fun c => (Cert.KernelIdeal.P m c).cellArr, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18⟩ := hagree c
    rw [Cert.ReferenceIdeal.Read.val_main_v67_eq, Cert.ReferenceIdeal.RefValue.out0_eq, e0, e1, e2, e3, e4, e5, e6, e7, e8, e9, e10, e11, e12, e13, e14, e15, e16, e17, e18]
    rfl
  · obtain ⟨e0, e1, e2, e3, e4, e5, e6, e7, e8, e9, e10, e11, e12, e13, e14, e15, e16, e17, e18⟩ := hagree c
    rw [Cert.ReferenceIdeal.Read.val_main_v65_eq, Cert.ReferenceIdeal.RefValue.out1_eq _ _ _ _ _ _ _ _ _ _ _ _ _ _ _ (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)), e0, e1, e2, e3, e4, e5, e6, e7, e8, e9, e10, e11, e12, e13, e14, e15, e16, e17, e18]
    rfl

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
